-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16x64x1024 : Shape := ⟨3, ![16, 64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_

variable [Facts]

def fn_part1 {F : FTy → Type} [FloatOps F] (main_arg4 : FVec F S16x64x1024 .f32) (main_arg5 : FVec F S16x64x1024 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64x1024 .f32 := Host.absf main_arg4
  let main_cst_6 : FVec F S_ .f32 := constant S_ .f32 0x7F800000#32
  let main_v20 : FVec F S16x64x1024 .f32 := broadcastInDim S16x64x1024 ![] bcast_S_S16x64x1024 main_cst_6
  let main_v21 : IVec S16x64x1024 1 := cmpf .olt main_v19 main_v20
  let main_c_7 : IVec S_ 1 := constantI S_ 1 1#1
  let main_v22 : IVec S_ 1 := (fun x v => Host.reduce IntOp.andi x v reducesTo_S16x64x1024_S_d0_1_2 h_S_) main_v21 main_c_7
  let main_v23 : IVec S_ 1 := andi main_v18 main_v22
  let main_v24 : FVec F S16x64x1024 .f32 := Host.absf main_arg5
  let main_cst_8 : FVec F S_ .f32 := constant S_ .f32 0x7F800000#32
  let main_v25 : FVec F S16x64x1024 .f32 := broadcastInDim S16x64x1024 ![] bcast_S_S16x64x1024 main_cst_8
  let main_v26 : IVec S16x64x1024 1 := cmpf .olt main_v24 main_v25
  let main_c_9 : IVec S_ 1 := constantI S_ 1 1#1
  let main_v27 : IVec S_ 1 := (fun x v => Host.reduce IntOp.andi x v reducesTo_S16x64x1024_S_d0_1_2 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S4x2048x1024 .f32) (main_arg3 : FVec F S16x64x1024 .f32) (main_arg4 : FVec F S16x64x1024 .f32) (main_arg5 : FVec F S16x64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_v13 main_v16
-- ==== Kernel.lean ====
abbrev S4x2048x1024 : Shape := ⟨3, ![4, 2048, 1024]⟩
abbrev S16x64x1024 : Shape := ⟨3, ![16, 64, 1024]⟩
abbrev S1024x16x64 : Shape := ⟨3, ![1024, 16, 64]⟩
abbrev S1024x1024 : Shape := ⟨2, ![1024, 1024]⟩
abbrev S4x16x1024x128 : Shape := ⟨4, ![4, 16, 1024, 128]⟩
abbrev S1x256x1024 : Shape := ⟨3, ![1, 256, 1024]⟩
abbrev S1x16x128x128 : Shape := ⟨4, ![1, 16, 128, 128]⟩
abbrev S256x1024 : Shape := ⟨2, ![256, 1024]⟩
abbrev S256x64 : Shape := ⟨2, ![256, 64]⟩
abbrev S128x128 : Shape := ⟨2, ![128, 128]⟩
abbrev S1x1x128x128 : Shape := ⟨4, ![1, 1, 128, 128]⟩
abbrev S4x16x2048x64 : Shape := ⟨4, ![4, 16, 2048, 64]⟩

abbrev nBuf : Space → Nat
  | .hbm => 21
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S1024x16x64, .f32⟩
  | .hbm, ⟨7, _⟩ => ⟨S1024x1024, .f32⟩
  | .hbm, ⟨8, _⟩ => ⟨S1024x1024, .bf16⟩
  | .hbm, ⟨9, _⟩ => ⟨S1024x16x64, .f32⟩
  | .hbm, ⟨10, _⟩ => ⟨S1024x1024, .f32⟩
  | .hbm, ⟨11, _⟩ => ⟨S1024x1024, .bf16⟩
  | .hbm, ⟨12, _⟩ => ⟨S1024x16x64, .f32⟩
  | .hbm, ⟨13, _⟩ => ⟨S1024x1024, .f32⟩
  | .hbm, ⟨14, _⟩ => ⟨S1024x1024, .bf16⟩
  | .hbm, ⟨15, _⟩ => ⟨S4x16x1024x128, .f32⟩
  | .hbm, ⟨16, _⟩ => ⟨S4x16x1024x128, .f32⟩
  | .hbm, ⟨17, _⟩ => ⟨S4x16x1024x128, .f32⟩
  | .hbm, ⟨18, _⟩ => ⟨S4x16x2048x64, .f32⟩
  | .hbm, ⟨19, _⟩ => ⟨S4x16x2048x64, .f32⟩
  | .hbm, ⟨20, _⟩ => ⟨S4x16x2048x64, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x16x128x128, .f32⟩
  | .local _ .vmem, ⟨10, _⟩ => ⟨S1x16x128x128, .f32⟩
  | .local _ .vmem, ⟨11, _⟩ => ⟨S1x16x128x128, .f32⟩
  | .local _ .vmem, ⟨12, _⟩ => ⟨S1x16x128x128, .f32⟩
  | .local _ .vmem, ⟨13, _⟩ => ⟨S1x16x128x128, .f32⟩
  | .local _ .vmem, ⟨14, _⟩ => ⟨S1x16x128x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S16x64x1024_S1024x16x64_2_0_1 : S16x64x1024.Transposes [2, 0, 1] S1024x16x64
  shapeCasts_S1024x16x64_S1024x1024 : S1024x16x64.ShapeCasts S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x1024_o0_0_S256x64 : S256x1024.Slices ![0, 0] S256x64
  shapeCasts_S256x64_S128x128 : S256x64.ShapeCasts S128x128
  inb_S1x16x128x128_S1x1x128x128_0_0_0_0 : ∀ a, (![0, 0, 0, 0] : Fin 4 → Nat) a + S1x1x128x128.size a ≤ S1x16x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  slices_S256x1024_o0_64_S256x64 : S256x1024.Slices ![0, 64] S256x64
  inb_S1x16x128x128_S1x1x128x128_0_1_0_0 : ∀ a, (![0, 1, 0, 0] : Fin 4 → Nat) a + S1x1x128x128.size a ≤ S1x16x128x128.size a
  slices_S256x1024_o0_128_S256x64 : S256x1024.Slices ![0, 128] S256x64
  inb_S1x16x128x128_S1x1x128x128_0_2_0_0 : ∀ a, (![0, 2, 0, 0] : Fin 4 → Nat) a + S1x1x128x128.size a ≤ S1x16x128x128.size a
  slices_S256x1024_o0_192_S256x64 : S256x1024.Slices ![0, 192] S256x64
  inb_S1x16x128x128_S1x1x128x128_0_3_0_0 : ∀ a, (![0, 3, 0, 0] : Fin 4 → Nat) a + S1x1x128x128.size a ≤ S1x16x128x128.size a
  slices_S256x1024_o0_256_S256x64 : S256x1024.Slices ![0, 256] S256x64
  inb_S1x16x128x128_S1x1x128x128_0_4_0_0 : ∀ a, (![0, 4, 0, 0] : Fin 4 → Nat) a + S1x1x128x128.size a ≤ S1x16x128x128.size a
  slices_S256x1024_o0_320_S256x64 : S256x1024.Slices ![0, 320] S256x64
  inb_S1x16x128x128_S1x1x128x128_0_5_0_0 : ∀ a, (![0, 5, 0, 0] : Fin 4 → Nat) a + S1x1x128x128.size a ≤ S1x16x128x128.size a
  slices_S256x1024_o0_384_S256x64 : S256x1024.Slices ![0, 384] S256x64
  inb_S1x16x128x128_S1x1x128x128_0_6_0_0 : ∀ a, (![0, 6, 0, 0] : Fin 4 → Nat) a + S1x1x128x128.size a ≤ S1x16x128x128.size a
  slices_S256x1024_o0_448_S256x64 : S256x1024.Slices ![0, 448] S256x64
  inb_S1x16x128x128_S1x1x128x128_0_7_0_0 : ∀ a, (![0, 7, 0, 0] : Fin 4 → Nat) a + S1x1x128x128.size a ≤ S1x16x128x128.size a
  slices_S256x1024_o0_512_S256x64 : S256x1024.Slices ![0, 512] S256x64
  inb_S1x16x128x128_S1x1x128x128_0_8_0_0 : ∀ a, (![0, 8, 0, 0] : Fin 4 → Nat) a + S1x1x128x128.size a ≤ S1x16x128x128.size a
  slices_S256x1024_o0_576_S256x64 : S256x1024.Slices ![0, 576] S256x64
  inb_S1x16x128x128_S1x1x128x128_0_9_0_0 : ∀ a, (![0, 9, 0, 0] : Fin 4 → Nat) a + S1x1x128x128.size a ≤ S1x16x128x128.size a
  slices_S256x1024_o0_640_S256x64 : S256x1024.Slices ![0, 640] S256x64
  inb_S1x16x128x128_S1x1x128x128_0_10_0_0 : ∀ a, (![0, 10, 0, 0] : Fin 4 → Nat) a + S1x1x128x128.size a ≤ S1x16x128x128.size a
  slices_S256x1024_o0_704_S256x64 : S256x1024.Slices ![0, 704] S256x64
  inb_S1x16x128x128_S1x1x128x128_0_11_0_0 : ∀ a, (![0, 11, 0, 0] : Fin 4 → Nat) a + S1x1x128x128.size a ≤ S1x16x128x128.size a
  slices_S256x1024_o0_768_S256x64 : S256x1024.Slices ![0, 768] S256x64
  inb_S1x16x128x128_S1x1x128x128_0_12_0_0 : ∀ a, (![0, 12, 0, 0] : Fin 4 → Nat) a + S1x1x128x128.size a ≤ S1x16x128x128.size a
  slices_S256x1024_o0_832_S256x64 : S256x1024.Slices ![0, 832] S256x64
  inb_S1x16x128x128_S1x1x128x128_0_13_0_0 : ∀ a, (![0, 13, 0, 0] : Fin 4 → Nat) a + S1x1x128x128.size a ≤ S1x16x128x128.size a
  slices_S256x1024_o0_896_S256x64 : S256x1024.Slices ![0, 896] S256x64
  inb_S1x16x128x128_S1x1x128x128_0_14_0_0 : ∀ a, (![0, 14, 0, 0] : Fin 4 → Nat) a + S1x1x128x128.size a ≤ S1x16x128x128.size a
  slices_S256x1024_o0_960_S256x64 : S256x1024.Slices ![0, 960] S256x64
  inb_S1x16x128x128_S1x1x128x128_0_15_0_0 : ∀ a, (![0, 15, 0, 0] : Fin 4 → Nat) a + S1x1x128x128.size a ≤ S1x16x128x128.size a
  shapeCasts_S4x16x1024x128_S4x16x2048x64 : S4x16x1024x128.ShapeCasts S4x16x2048x64
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x2048x1024.size a
  hwx0_1 : ∀ i : grid0.Coords, EltTy.bits .f32 = 32 ∨ (Rect.block (s := S4x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x2048x1024.size a
  hwx0_2 : ∀ i : grid0.Coords, EltTy.bits .f32 = 32 ∨ (Rect.block (s := S4x2048x1024) S1x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x128x128.size a ≤ S4x16x1024x128.size a
  hwx0_6 : ∀ i : grid0.Coords, EltTy.bits .f32 = 32 ∨ (Rect.block (s := S4x16x1024x128) S1x16x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x128x128.size a ≤ S4x16x1024x128.size a
  hwx0_7 : ∀ i : grid0.Coords, EltTy.bits .f32 = 32 ∨ (Rect.block (s := S4x16x1024x128) S1x16x128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x128x128.size a ≤ S4x16x1024x128.size a
  hwx0_8 : ∀ i : grid0.Coords, EltTy.bits .f32 = 32 ∨ (Rect.block (s := S4x16x1024x128) S1x16x128x128.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1x16x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1x16x128x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_2) S1x16x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S16x64x1024 : Shape := ⟨3, ![16, 64, 1024]⟩
abbrev S16x64x4x2048 : Shape := ⟨4, ![16, 64, 4, 2048]⟩
abbrev S4x16x2048x64 : Shape := ⟨4, ![4, 16, 2048, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S16x64x4x2048, .f32⟩
  | .hbm, ⟨7, _⟩ => ⟨S4x16x2048x64, .f32⟩
  | .hbm, ⟨8, _⟩ => ⟨S16x64x4x2048, .f32⟩
  | .hbm, ⟨9, _⟩ => ⟨S4x16x2048x64, .f32⟩
  | .hbm, ⟨10, _⟩ => ⟨S16x64x4x2048, .f32⟩
  | .hbm, ⟨11, _⟩ => ⟨S4x16x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  transposes_S16x64x4x2048_S4x16x2048x64_2_0_3_1 : S16x64x4x2048.Transposes [2, 0, 3, 1] S4x16x2048x64
  dot_S16x64x1024_S4x2048x1024_S16x64x4x2048_2_2_01_01_n_n_wf : DotDims.WF S16x64x1024 S4x2048x1024 S16x64x4x2048 [2] [2] [0, 1] [0, 1] [] []

variable [Facts₀]

def dot_S16x64x1024_S4x2048x1024_S16x64x4x2048_2_2_01_01_n_n : DotDims S16x64x1024 S4x2048x1024 S16x64x4x2048 where
  lhsContracting := [2]
  rhsContracting := [2]
  lhsNonContracting := [0, 1]
  rhsNonContracting := [0, 1]
  lhsBatch := []
  rhsBatch := []
  wf := dot_S16x64x1024_S4x2048x1024_S16x64x4x2048_2_2_01_01_n_n_wf

class Facts : Prop extends Facts₀ where

variable [Facts]
-- ==== Proof.HeadFold.lean ====
/-
  One head's lane-dense fold, read at an index.

  A block of projected rows is a 256 x 1024 matrix Y: row r is a sequence position inside the block, column
  h*64 + d is coordinate d of head h. For each head the kernel cuts the 64 columns of that head, refolds the
  256 x 64 slice to 128 x 128 keeping the row-major order (so folded row i holds slice rows 2i and 2i+1 side by
  side) and stores it as plane h of a 1 x 16 x 128 x 128 block. Entry (0, h, i, j) of the block is therefore
  Y (2i + j/64, h*64 + j mod 64). This file states that once, for any element type.
-/
import Idealize.ShloMosaic.Lib.Pipeline.Value
import Idealize.ShloMosaic.Lib.ValueIdx

noncomputable section

namespace Cert.HeadFold

open Idealize.ShloMosaic Idealize.ShloMosaic.ValueIdx

variable {α : Type}

/-- The projected rows of one block: 256 positions by 16 heads x 64 coordinates. -/
abbrev SY : Shape := ⟨2, ![256, 1024]⟩
/-- One head's columns. -/
abbrev SH : Shape := ⟨2, ![256, 64]⟩
/-- The same numbers with two positions per row. -/
abbrev SF : Shape := ⟨2, ![128, 128]⟩
/-- One head's plane as it is stored. -/
abbrev SP : Shape := ⟨4, ![1, 1, 128, 128]⟩
/-- The output block: one plane per head. -/
abbrev SB : Shape := ⟨4, ![1, 16, 128, 128]⟩

/-- The row of the projected rows that entry (·, h, i, j) of the output block comes from: 2i + j/64. -/
def row (y : SB.Idx) : Fin 256 :=
  ⟨2 * (y 2).val + (y 3).val / 64, by
    have h2 : (y 2).val < 128 := (y 2).isLt
    have h3 : (y 3).val < 128 := (y 3).isLt
    omega⟩
/-- Its column: h*64 + j mod 64. -/
def col (y : SB.Idx) : Fin 1024 :=
  ⟨(y 1).val * 64 + (y 3).val % 64, by
    have h1 : (y 1).val < 16 := (y 1).isLt
    omega⟩
/-- The entry itself. -/
def src (y : SB.Idx) : SY.Idx := ix2 (row y) (col y)

theorem row_val (y : SB.Idx) : (row y).val = 2 * (y 2).val + (y 3).val / 64 := rfl
theorem col_val (y : SB.Idx) : (col y).val = (y 1).val * 64 + (y 3).val % 64 := rfl
theorem src_row (y : SB.Idx) : (src y 0).val = 2 * (y 2).val + (y 3).val / 64 := rfl
theorem src_col (y : SB.Idx) : (src y 1).val = (y 1).val * 64 + (y 3).val % 64 := rfl

/-- The output block as one function of the projected rows. -/
def blockOf (Y : SY.Idx → α) : SB.Idx → α := fun y => Y (src y)

/-- Head h's stored plane — the columns from o = h*64 on, refolded, with two unit axes in front — at its own
    index x is the block function at the place the plane's rectangle puts x. -/
theorem plane_apply (h o : Nat) (ho : o = h * 64) (Y : SY.Idx → α) (hs : SY.Slices ![0, o] SH)
    (h1 : SH.ShapeCasts SF) (h2 : SF.ShapeCasts SP)
    (inb : ∀ a, (![0, h, 0, 0] : Fin 4 → Nat) a + SP.size a ≤ SB.size a) (x : SP.Idx) :
    shapeCast SP (shapeCast SF (extractStridedSlice SH ![0, o] Y hs) h1) h2 x
      = blockOf Y ((Rect.unit (s := SB) ![0, h, 0, 0] SP.size inb).emb x) := by
  have hx0 : (x 0).val < 1 := (x 0).isLt
  have hx1 : (x 1).val < 1 := (x 1).isLt
  have hx2 : (x 2).val < 128 := (x 2).isLt
  have hx3 : (x 3).val < 128 := (x 3).isLt
  -- the plane's index, without its unit axes
  let k1 : SF.Idx := ix2 (⟨(x 2).val, hx2⟩ : Fin 128) (⟨(x 3).val, hx3⟩ : Fin 128)
  -- the same row-major position in the 256 x 64 slice
  let k0 : SH.Idx := ix2 (⟨((x 2).val * 128 + (x 3).val) / 64, by omega⟩ : Fin 256)
    (⟨((x 2).val * 128 + (x 3).val) % 64, by omega⟩ : Fin 64)
  have e1 : (SF.rowMajor k1).val = (SP.rowMajor x).val := by
    rw [Shape.rowMajor_val_two, Shape.rowMajor_val_four]
    show (x 2).val * 128 + (x 3).val = (((x 0).val * 1 + (x 1).val) * 128 + (x 2).val) * 128 + (x 3).val
    omega
  have e0 : (SH.rowMajor k0).val = (SF.rowMajor k1).val := by
    rw [Shape.rowMajor_val_two, Shape.rowMajor_val_two]
    show ((x 2).val * 128 + (x 3).val) / 64 * 64 + ((x 2).val * 128 + (x 3).val) % 64 = (x 2).val * 128 + (x 3).val
    omega
  rw [shapeCast_apply _ h2 x k1 e1, shapeCast_apply _ h1 k1 k0 e0]
  refine extractStridedSlice_apply _ Y hs k0 _ fun a => ?_
  have p1 : (((Rect.unit (s := SB) ![0, h, 0, 0] SP.size inb).emb x) 1).val = h + 1 * (x 1).val := rfl
  have p2 : (((Rect.unit (s := SB) ![0, h, 0, 0] SP.size inb).emb x) 2).val = 0 + 1 * (x 2).val := rfl
  have p3 : (((Rect.unit (s := SB) ![0, h, 0, 0] SP.size inb).emb x) 3).val = 0 + 1 * (x 3).val := rfl
  match a with
  | ⟨0, _⟩ =>
    show (src _ 0).val = 0 + ((x 2).val * 128 + (x 3).val) / 64
    rw [src_row, p2, p3]; omega
  | ⟨1, _⟩ =>
    show (src _ 1).val = o + ((x 2).val * 128 + (x 3).val) % 64
    rw [src_col, p1, p3]; omega

end Cert.HeadFold

end
-- ==== Proof.Blocks.lean ====
/-
  What the body leaves in each output block, as one function of the block's projected rows.

  The body computes, for each of the three inputs, the 256 x 1024 product Y of the block of rows by the weight
  matrix and stores head h's folded 64 columns as plane h of the output block. All sixteen stored planes agree with
  one function of Y (HeadFold.blockOf), and the planes tile the block, so the block after the body IS that function.
-/
import proofs.«144359_j3564822855692_2_alg».proof.Proof.Gen.KernelIdeal.Frame
import proofs.«144359_j3564822855692_2_alg».proof.Proof.HeadFold

set_option maxRecDepth 16384

noncomputable section

namespace Cert.KernelIdeal.Blocks

open Idealize.ShloMosaic Idealize.ShloMosaic.ValueIdx Cert.KernelIdeal Cert.KernelIdeal.Gen Cert.HeadFold

variable {F : FTy → Type} [FloatOps F]

/-- The first output block is the fold of the first product. -/
theorem out6_eq (x0 x1 x2 : Vec F S1x256x1024 .f32) (x3 x4 x5 : Vec F S1024x1024 .bf16) :
    out0_6 x0 x1 x2 x3 x4 x5 = blockOf (k0_pay5 (View.ld x0 r0_0) (View.ld x3 r0_1)) := by
  funext y
  unfold out0_6
  refine View.canon_apply_of_pieces (blockOf (k0_pay5 (View.ld x0 r0_0) (View.ld x3 r0_1))) _ ?_ y
    (cover0_6 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x; exact plane_apply 15 960 rfl _ slices_S256x1024_o0_960_S256x64 shapeCasts_S256x64_S128x128 shapeCasts_S128x128_S1x1x128x128 inb_S1x16x128x128_S1x1x128x128_0_15_0_0 x
  · intro x; exact plane_apply 14 896 rfl _ slices_S256x1024_o0_896_S256x64 shapeCasts_S256x64_S128x128 shapeCasts_S128x128_S1x1x128x128 inb_S1x16x128x128_S1x1x128x128_0_14_0_0 x
  · intro x; exact plane_apply 13 832 rfl _ slices_S256x1024_o0_832_S256x64 shapeCasts_S256x64_S128x128 shapeCasts_S128x128_S1x1x128x128 inb_S1x16x128x128_S1x1x128x128_0_13_0_0 x
  · intro x; exact plane_apply 12 768 rfl _ slices_S256x1024_o0_768_S256x64 shapeCasts_S256x64_S128x128 shapeCasts_S128x128_S1x1x128x128 inb_S1x16x128x128_S1x1x128x128_0_12_0_0 x
  · intro x; exact plane_apply 11 704 rfl _ slices_S256x1024_o0_704_S256x64 shapeCasts_S256x64_S128x128 shapeCasts_S128x128_S1x1x128x128 inb_S1x16x128x128_S1x1x128x128_0_11_0_0 x
  · intro x; exact plane_apply 10 640 rfl _ slices_S256x1024_o0_640_S256x64 shapeCasts_S256x64_S128x128 shapeCasts_S128x128_S1x1x128x128 inb_S1x16x128x128_S1x1x128x128_0_10_0_0 x
  · intro x; exact plane_apply 9 576 rfl _ slices_S256x1024_o0_576_S256x64 shapeCasts_S256x64_S128x128 shapeCasts_S128x128_S1x1x128x128 inb_S1x16x128x128_S1x1x128x128_0_9_0_0 x
  · intro x; exact plane_apply 8 512 rfl _ slices_S256x1024_o0_512_S256x64 shapeCasts_S256x64_S128x128 shapeCasts_S128x128_S1x1x128x128 inb_S1x16x128x128_S1x1x128x128_0_8_0_0 x
  · intro x; exact plane_apply 7 448 rfl _ slices_S256x1024_o0_448_S256x64 shapeCasts_S256x64_S128x128 shapeCasts_S128x128_S1x1x128x128 inb_S1x16x128x128_S1x1x128x128_0_7_0_0 x
  · intro x; exact plane_apply 6 384 rfl _ slices_S256x1024_o0_384_S256x64 shapeCasts_S256x64_S128x128 shapeCasts_S128x128_S1x1x128x128 inb_S1x16x128x128_S1x1x128x128_0_6_0_0 x
  · intro x; exact plane_apply 5 320 rfl _ slices_S256x1024_o0_320_S256x64 shapeCasts_S256x64_S128x128 shapeCasts_S128x128_S1x1x128x128 inb_S1x16x128x128_S1x1x128x128_0_5_0_0 x
  · intro x; exact plane_apply 4 256 rfl _ slices_S256x1024_o0_256_S256x64 shapeCasts_S256x64_S128x128 shapeCasts_S128x128_S1x1x128x128 inb_S1x16x128x128_S1x1x128x128_0_4_0_0 x
  · intro x; exact plane_apply 3 192 rfl _ slices_S256x1024_o0_192_S256x64 shapeCasts_S256x64_S128x128 shapeCasts_S128x128_S1x1x128x128 inb_S1x16x128x128_S1x1x128x128_0_3_0_0 x
  · intro x; exact plane_apply 2 128 rfl _ slices_S256x1024_o0_128_S256x64 shapeCasts_S256x64_S128x128 shapeCasts_S128x128_S1x1x128x128 inb_S1x16x128x128_S1x1x128x128_0_2_0_0 x
  · intro x; exact plane_apply 1 64 rfl _ slices_S256x1024_o0_64_S256x64 shapeCasts_S256x64_S128x128 shapeCasts_S128x128_S1x1x128x128 inb_S1x16x128x128_S1x1x128x128_0_1_0_0 x
  · intro x; exact plane_apply 0 0 rfl _ slices_S256x1024_o0_0_S256x64 shapeCasts_S256x64_S128x128 shapeCasts_S128x128_S1x1x128x128 inb_S1x16x128x128_S1x1x128x128_0_0_0_0 x

/-- The second output block is the fold of the second product. -/
theorem out7_eq (x0 x1 x2 : Vec F S1x256x1024 .f32) (x3 x4 x5 : Vec F S1024x1024 .bf16) :
    out0_7 x0 x1 x2 x3 x4 x5 = blockOf (k0_pay25 (k0_pay24 (View.ld x1 r0_0)) (View.ld x4 r0_1)) := by
  funext y
  unfold out0_7
  refine View.canon_apply_of_pieces (blockOf (k0_pay25 (k0_pay24 (View.ld x1 r0_0)) (View.ld x4 r0_1))) _ ?_ y
    (cover0_7 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x; exact plane_apply 15 960 rfl _ slices_S256x1024_o0_960_S256x64 shapeCasts_S256x64_S128x128 shapeCasts_S128x128_S1x1x128x128 inb_S1x16x128x128_S1x1x128x128_0_15_0_0 x
  · intro x; exact plane_apply 14 896 rfl _ slices_S256x1024_o0_896_S256x64 shapeCasts_S256x64_S128x128 shapeCasts_S128x128_S1x1x128x128 inb_S1x16x128x128_S1x1x128x128_0_14_0_0 x
  · intro x; exact plane_apply 13 832 rfl _ slices_S256x1024_o0_832_S256x64 shapeCasts_S256x64_S128x128 shapeCasts_S128x128_S1x1x128x128 inb_S1x16x128x128_S1x1x128x128_0_13_0_0 x
  · intro x; exact plane_apply 12 768 rfl _ slices_S256x1024_o0_768_S256x64 shapeCasts_S256x64_S128x128 shapeCasts_S128x128_S1x1x128x128 inb_S1x16x128x128_S1x1x128x128_0_12_0_0 x
  · intro x; exact plane_apply 11 704 rfl _ slices_S256x1024_o0_704_S256x64 shapeCasts_S256x64_S128x128 shapeCasts_S128x128_S1x1x128x128 inb_S1x16x128x128_S1x1x128x128_0_11_0_0 x
  · intro x; exact plane_apply 10 640 rfl _ slices_S256x1024_o0_640_S256x64 shapeCasts_S256x64_S128x128 shapeCasts_S128x128_S1x1x128x128 inb_S1x16x128x128_S1x1x128x128_0_10_0_0 x
  · intro x; exact plane_apply 9 576 rfl _ slices_S256x1024_o0_576_S256x64 shapeCasts_S256x64_S128x128 shapeCasts_S128x128_S1x1x128x128 inb_S1x16x128x128_S1x1x128x128_0_9_0_0 x
  · intro x; exact plane_apply 8 512 rfl _ slices_S256x1024_o0_512_S256x64 shapeCasts_S256x64_S128x128 shapeCasts_S128x128_S1x1x128x128 inb_S1x16x128x128_S1x1x128x128_0_8_0_0 x
  · intro x; exact plane_apply 7 448 rfl _ slices_S256x1024_o0_448_S256x64 shapeCasts_S256x64_S128x128 shapeCasts_S128x128_S1x1x128x128 inb_S1x16x128x128_S1x1x128x128_0_7_0_0 x
  · intro x; exact plane_apply 6 384 rfl _ slices_S256x1024_o0_384_S256x64 shapeCasts_S256x64_S128x128 shapeCasts_S128x128_S1x1x128x128 inb_S1x16x128x128_S1x1x128x128_0_6_0_0 x
  · intro x; exact plane_apply 5 320 rfl _ slices_S256x1024_o0_320_S256x64 shapeCasts_S256x64_S128x128 shapeCasts_S128x128_S1x1x128x128 inb_S1x16x128x128_S1x1x128x128_0_5_0_0 x
  · intro x; exact plane_apply 4 256 rfl _ slices_S256x1024_o0_256_S256x64 shapeCasts_S256x64_S128x128 shapeCasts_S128x128_S1x1x128x128 inb_S1x16x128x128_S1x1x128x128_0_4_0_0 x
  · intro x; exact plane_apply 3 192 rfl _ slices_S256x1024_o0_192_S256x64 shapeCasts_S256x64_S128x128 shapeCasts_S128x128_S1x1x128x128 inb_S1x16x128x128_S1x1x128x128_0_3_0_0 x
  · intro x; exact plane_apply 2 128 rfl _ slices_S256x1024_o0_128_S256x64 shapeCasts_S256x64_S128x128 shapeCasts_S128x128_S1x1x128x128 inb_S1x16x128x128_S1x1x128x128_0_2_0_0 x
  · intro x; exact plane_apply 1 64 rfl _ slices_S256x1024_o0_64_S256x64 shapeCasts_S256x64_S128x128 shapeCasts_S128x128_S1x1x128x128 inb_S1x16x128x128_S1x1x128x128_0_1_0_0 x
  · intro x; exact plane_apply 0 0 rfl _ slices_S256x1024_o0_0_S256x64 shapeCasts_S256x64_S128x128 shapeCasts_S128x128_S1x1x128x128 inb_S1x16x128x128_S1x1x128x128_0_0_0_0 x

/-- The third output block is the fold of the third product. -/
theorem out8_eq (x0 x1 x2 : Vec F S1x256x1024 .f32) (x3 x4 x5 : Vec F S1024x1024 .bf16) :
    out0_8 x0 x1 x2 x3 x4 x5 = blockOf (k0_pay44 (View.ld x2 r0_0) (View.ld x5 r0_1)) := by
  funext y
  unfold out0_8
  refine View.canon_apply_of_pieces (blockOf (k0_pay44 (View.ld x2 r0_0) (View.ld x5 r0_1))) _ ?_ y
    (cover0_8 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x; exact plane_apply 15 960 rfl _ slices_S256x1024_o0_960_S256x64 shapeCasts_S256x64_S128x128 shapeCasts_S128x128_S1x1x128x128 inb_S1x16x128x128_S1x1x128x128_0_15_0_0 x
  · intro x; exact plane_apply 14 896 rfl _ slices_S256x1024_o0_896_S256x64 shapeCasts_S256x64_S128x128 shapeCasts_S128x128_S1x1x128x128 inb_S1x16x128x128_S1x1x128x128_0_14_0_0 x
  · intro x; exact plane_apply 13 832 rfl _ slices_S256x1024_o0_832_S256x64 shapeCasts_S256x64_S128x128 shapeCasts_S128x128_S1x1x128x128 inb_S1x16x128x128_S1x1x128x128_0_13_0_0 x
  · intro x; exact plane_apply 12 768 rfl _ slices_S256x1024_o0_768_S256x64 shapeCasts_S256x64_S128x128 shapeCasts_S128x128_S1x1x128x128 inb_S1x16x128x128_S1x1x128x128_0_12_0_0 x
  · intro x; exact plane_apply 11 704 rfl _ slices_S256x1024_o0_704_S256x64 shapeCasts_S256x64_S128x128 shapeCasts_S128x128_S1x1x128x128 inb_S1x16x128x128_S1x1x128x128_0_11_0_0 x
  · intro x; exact plane_apply 10 640 rfl _ slices_S256x1024_o0_640_S256x64 shapeCasts_S256x64_S128x128 shapeCasts_S128x128_S1x1x128x128 inb_S1x16x128x128_S1x1x128x128_0_10_0_0 x
  · intro x; exact plane_apply 9 576 rfl _ slices_S256x1024_o0_576_S256x64 shapeCasts_S256x64_S128x128 shapeCasts_S128x128_S1x1x128x128 inb_S1x16x128x128_S1x1x128x128_0_9_0_0 x
  · intro x; exact plane_apply 8 512 rfl _ slices_S256x1024_o0_512_S256x64 shapeCasts_S256x64_S128x128 shapeCasts_S128x128_S1x1x128x128 inb_S1x16x128x128_S1x1x128x128_0_8_0_0 x
  · intro x; exact plane_apply 7 448 rfl _ slices_S256x1024_o0_448_S256x64 shapeCasts_S256x64_S128x128 shapeCasts_S128x128_S1x1x128x128 inb_S1x16x128x128_S1x1x128x128_0_7_0_0 x
  · intro x; exact plane_apply 6 384 rfl _ slices_S256x1024_o0_384_S256x64 shapeCasts_S256x64_S128x128 shapeCasts_S128x128_S1x1x128x128 inb_S1x16x128x128_S1x1x128x128_0_6_0_0 x
  · intro x; exact plane_apply 5 320 rfl _ slices_S256x1024_o0_320_S256x64 shapeCasts_S256x64_S128x128 shapeCasts_S128x128_S1x1x128x128 inb_S1x16x128x128_S1x1x128x128_0_5_0_0 x
  · intro x; exact plane_apply 4 256 rfl _ slices_S256x1024_o0_256_S256x64 shapeCasts_S256x64_S128x128 shapeCasts_S128x128_S1x1x128x128 inb_S1x16x128x128_S1x1x128x128_0_4_0_0 x
  · intro x; exact plane_apply 3 192 rfl _ slices_S256x1024_o0_192_S256x64 shapeCasts_S256x64_S128x128 shapeCasts_S128x128_S1x1x128x128 inb_S1x16x128x128_S1x1x128x128_0_3_0_0 x
  · intro x; exact plane_apply 2 128 rfl _ slices_S256x1024_o0_128_S256x64 shapeCasts_S256x64_S128x128 shapeCasts_S128x128_S1x1x128x128 inb_S1x16x128x128_S1x1x128x128_0_2_0_0 x
  · intro x; exact plane_apply 1 64 rfl _ slices_S256x1024_o0_64_S256x64 shapeCasts_S256x64_S128x128 shapeCasts_S128x128_S1x1x128x128 inb_S1x16x128x128_S1x1x128x128_0_1_0_0 x
  · intro x; exact plane_apply 0 0 rfl _ slices_S256x1024_o0_0_S256x64 shapeCasts_S256x64_S128x128 shapeCasts_S128x128_S1x1x128x128 inb_S1x16x128x128_S1x1x128x128_0_0_0_0 x

end Cert.KernelIdeal.Blocks

end
-- ==== Proof.Product.lean ====
/-
  The block's projected rows and the transposed weight matrix, read at an entry, on the extended reals.

  At the exact instance a change of float format is the identity and a product accumulated into zeros is the plain
  sum of products. So entry (r, c) of the block's product is the sum over e of X(0, r, e) * Wt(e, c), where X is the
  block of input rows and Wt the 1024 x 1024 matrix the kernel is handed. That matrix is made before the kernel from
  the weights W[h, d, e]: transposed to [e, h, d] and flattened to [e, h*64 + d]; so Wt(e, c) = W(c / 64, c mod 64, e).
-/
import proofs.«144359_j3564822855692_2_alg».proof.Proof.Gen.KernelIdeal.Skeleton
import Idealize.ShloMosaic.Lib.StackMember
import Idealize.ShloMosaic.Lib.KernelVsHost
import Idealize.ShloMosaic.Lib.Pipeline.Value
import Idealize.ShloMosaic.Lib.ValueIdx

noncomputable section

namespace Cert.KernelIdeal.Product

open Idealize.ShloMosaic Idealize.ShloMosaic.ValueIdx Cert.KernelIdeal Cert.KernelIdeal.Gen

/-- The product of a block of rows (cast to the narrow format) by the weight matrix, into zeros, at entry (r, c):
    the sum over the embedding coordinate of the products of the entries. -/
theorem proj_apply (X : FVec Ideal S1x256x1024 .f32) (Wt : FVec Ideal S1024x1024 .bf16) (r : Fin 256) (cc : Fin 1024) :
    matmul (F := Ideal) dot_S256x1024_S1024x1024_S256x1024_1_0_0_1_n_n none
        (truncf (F := Ideal) .bf16 (shapeCast S256x1024 X shapeCasts_S1x256x1024_S256x1024) bitsLt_bf16_f32)
        (shapeCast S1024x1024 Wt shapeCasts_S1024x1024_S1024x1024) (constant S256x1024 .f32 0x00000000#32) (ix2 r cc)
      = ∑ e : Fin 1024, X (ix3 (0 : Fin 1) r e) * Wt (ix2 e cc) := by
  show matmul (DotDims.plain 256 1024 1024) none _ _ (constant (F := Ideal) ⟨2, ![256, 1024]⟩ .f32 0x00000000#32) (ix2 r cc) = _
  rw [matmul_zero_eq_dotGeneral, StackMember.dotGeneral_plain_apply]
  refine Finset.sum_congr rfl fun e _ => ?_
  have eA : (truncf (F := Ideal) .bf16 (shapeCast S256x1024 X shapeCasts_S1x256x1024_S256x1024) bitsLt_bf16_f32) (ix2 r e)
      = X (ix3 (0 : Fin 1) r e) := by
    show shapeCast S256x1024 X shapeCasts_S1x256x1024_S256x1024 (ix2 r e) = _
    exact shapeCast_apply X shapeCasts_S1x256x1024_S256x1024 (ix2 r e) (ix3 (0 : Fin 1) r e) (by
      rw [Shape.rowMajor_val_three, Shape.rowMajor_val_two]
      show ((0 : Nat) * 256 + r.val) * 1024 + e.val = r.val * 1024 + e.val
      omega)
  rw [eA, shapeCast_self]

/-- The body forms this product three times, once per input: each of the three is that sum. -/
theorem pay5_apply (X : FVec Ideal S1x256x1024 .f32) (Wt : FVec Ideal S1024x1024 .bf16) (r : Fin 256) (cc : Fin 1024) :
    k0_pay5 (F := Ideal) X Wt (ix2 r cc) = ∑ e : Fin 1024, X (ix3 (0 : Fin 1) r e) * Wt (ix2 e cc) :=
  proj_apply X Wt r cc
theorem pay25_apply (X : FVec Ideal S1x256x1024 .f32) (Wt : FVec Ideal S1024x1024 .bf16) (r : Fin 256) (cc : Fin 1024) :
    k0_pay25 (F := Ideal) (k0_pay24 X) Wt (ix2 r cc) = ∑ e : Fin 1024, X (ix3 (0 : Fin 1) r e) * Wt (ix2 e cc) :=
  proj_apply X Wt r cc
theorem pay44_apply (X : FVec Ideal S1x256x1024 .f32) (Wt : FVec Ideal S1024x1024 .bf16) (r : Fin 256) (cc : Fin 1024) :
    k0_pay44 (F := Ideal) X Wt (ix2 r cc) = ∑ e : Fin 1024, X (ix3 (0 : Fin 1) r e) * Wt (ix2 e cc) :=
  proj_apply X Wt r cc

/-- The matrix the kernel is handed, from the weights: Wt(e, c) = W(c / 64, c mod 64, e). -/
def weightT (W : FVec Ideal S16x64x1024 .f32) : FVec Ideal S1024x1024 .bf16 :=
  truncf (F := Ideal) .bf16 (shapeCast S1024x1024 (transpose S1024x16x64 [2, 0, 1] W transposes_S16x64x1024_S1024x16x64_2_0_1)
    shapeCasts_S1024x16x64_S1024x1024) bitsLt_bf16_f32

theorem weightT_apply (W : FVec Ideal S16x64x1024 .f32) (e : Fin 1024) (cc : Fin 1024) :
    weightT W (ix2 e cc)
      = W (ix3 (⟨cc.val / 64, by have := cc.isLt; omega⟩ : Fin 16) (⟨cc.val % 64, by omega⟩ : Fin 64) e) := by
  show shapeCast S1024x1024 (transpose S1024x16x64 [2, 0, 1] W transposes_S16x64x1024_S1024x16x64_2_0_1)
    shapeCasts_S1024x16x64_S1024x1024 (ix2 e cc) = _
  refine (shapeCast_apply _ shapeCasts_S1024x16x64_S1024x1024 (ix2 e cc)
    (ix3 e (⟨cc.val / 64, by have := cc.isLt; omega⟩ : Fin 16) (⟨cc.val % 64, by omega⟩ : Fin 64)) (by
      rw [Shape.rowMajor_val_three, Shape.rowMajor_val_two]
      show (e.val * 16 + cc.val / 64) * 64 + cc.val % 64 = e.val * 1024 + cc.val
      omega)).trans ?_
  exact transpose_apply [2, 0, 1] W transposes_S16x64x1024_S1024x16x64_2_0_1 _ _ (fun b => match b with
    | ⟨0, _⟩ => rfl
    | ⟨1, _⟩ => rfl
    | ⟨2, _⟩ => rfl)

end Cert.KernelIdeal.Product

end
-- ==== Proof.BlockValue.lean ====
/-
  What the body leaves in each output block, entry by entry, from the blocks it was handed.

  Entry (·, h, i, j) of an output block is entry (2i + j/64, h*64 + j mod 64) of the block's product, which is the sum
  over the embedding coordinate e of X(0, 2i + j/64, e) * Wt(e, h*64 + j mod 64): X the block of input rows, Wt the
  weight matrix as the kernel sees it.
-/
import proofs.«144359_j3564822855692_2_alg».proof.Proof.Blocks
import proofs.«144359_j3564822855692_2_alg».proof.Proof.Product

set_option maxRecDepth 16384

noncomputable section

namespace Cert.KernelIdeal.BlockValue

open Idealize.ShloMosaic Idealize.ShloMosaic.ValueIdx Cert.KernelIdeal Cert.KernelIdeal.Gen Cert.HeadFold
open Cert.KernelIdeal.Blocks Cert.KernelIdeal.Product

theorem zeros3 : (![0, 0, 0] : Fin 3 → Nat) = fun _ => 0 := funext fun a => by fin_cases a <;> rfl
theorem zeros2 : (![0, 0] : Fin 2 → Nat) = fun _ => 0 := funext fun a => by fin_cases a <;> rfl

/-- The first output block, entry by entry. -/
theorem out6_apply (x0 x1 x2 : FVec Ideal S1x256x1024 .f32) (x3 x4 x5 : FVec Ideal S1024x1024 .bf16)
    (y : S1x16x128x128.Idx) :
    out0_6 (F := Ideal) x0 x1 x2 x3 x4 x5 y
      = ∑ e : Fin 1024, x0 (ix3 (0 : Fin 1) (row y) e) * x3 (ix2 e (col y)) := by
  rw [out6_eq]
  show k0_pay5 (F := Ideal) (View.ld x0 r0_0) (View.ld x3 r0_1) (ix2 (row y) (col y)) = _
  simp only [View.ld_unit_zero (S := S1x256x1024) zeros3, View.ld_unit_zero (S := S1024x1024) zeros2]
  exact pay5_apply x0 x3 (row y) (col y)

/-- The second. -/
theorem out7_apply (x0 x1 x2 : FVec Ideal S1x256x1024 .f32) (x3 x4 x5 : FVec Ideal S1024x1024 .bf16)
    (y : S1x16x128x128.Idx) :
    out0_7 (F := Ideal) x0 x1 x2 x3 x4 x5 y
      = ∑ e : Fin 1024, x1 (ix3 (0 : Fin 1) (row y) e) * x4 (ix2 e (col y)) := by
  rw [out7_eq]
  show k0_pay25 (F := Ideal) (k0_pay24 (View.ld x1 r0_0)) (View.ld x4 r0_1) (ix2 (row y) (col y)) = _
  simp only [View.ld_unit_zero (S := S1x256x1024) zeros3, View.ld_unit_zero (S := S1024x1024) zeros2]
  exact pay25_apply x1 x4 (row y) (col y)

/-- The third. -/
theorem out8_apply (x0 x1 x2 : FVec Ideal S1x256x1024 .f32) (x3 x4 x5 : FVec Ideal S1024x1024 .bf16)
    (y : S1x16x128x128.Idx) :
    out0_8 (F := Ideal) x0 x1 x2 x3 x4 x5 y
      = ∑ e : Fin 1024, x2 (ix3 (0 : Fin 1) (row y) e) * x5 (ix2 e (col y)) := by
  rw [out8_eq]
  show k0_pay44 (F := Ideal) (View.ld x2 r0_0) (View.ld x5 r0_1) (ix2 (row y) (col y)) = _
  simp only [View.ld_unit_zero (S := S1x256x1024) zeros3, View.ld_unit_zero (S := S1024x1024) zeros2]
  exact pay44_apply x2 x5 (row y) (col y)

end Cert.KernelIdeal.BlockValue

end
-- ==== Proof.Proj.lean ====
/-
  The folded projection, as one function of whole arrays.

  For input rows X[b, s, e] and a weight matrix Wt[e, c] (c = h*64 + d), the kernel's folded output [4, 16, 1024, 128]
  holds at (b, h, i, j) the product of row s = 2i + j/64 of batch b by column h*64 + (j mod 64): two consecutive
  positions of one head side by side in a 128-lane row.
-/
import proofs.«144359_j3564822855692_2_alg».proof.KernelIdeal
import Idealize.ShloMosaic.Lib.ValueIdx
import Idealize.ShloMosaic.PureOps.Ideal

noncomputable section

namespace Cert.KernelIdeal.Arrays

open Idealize.ShloMosaic Idealize.ShloMosaic.ValueIdx Cert.KernelIdeal

/-- Entry (b, h, i, j) is the sum over e of X(b, 2i + j/64, e) * Wt(e, h*64 + j mod 64). -/
def proj (X : FVec Ideal S4x2048x1024 .f32) (Wt : FVec Ideal S1024x1024 .bf16) : FVec Ideal S4x16x1024x128 .f32 :=
  fun i => ∑ e : Fin 1024,
    X (ix3 (⟨(i 0).val, (i 0).isLt⟩ : Fin 4)
        (⟨2 * (i 2).val + (i 3).val / 64, by
          have h2 : (i 2).val < 1024 := (i 2).isLt
          have h3 : (i 3).val < 128 := (i 3).isLt
          omega⟩ : Fin 2048) e)
      * Wt (ix2 e (⟨(i 1).val * 64 + (i 3).val % 64, by
          have h1 : (i 1).val < 16 := (i 1).isLt
          omega⟩ : Fin 1024))

end Cert.KernelIdeal.Arrays

end
-- ==== Proof.ArrayQ.lean ====
/-
  From each grid point's block to the whole first output array.

  Grid point (b, s) handles rows 256 s .. 256 s + 255 of batch b and writes block (b, all heads, s, all lanes) of the
  folded output [4, 16, 1024, 128]. Each written block is the restriction of ONE function of the whole arrays (the
  folded projection), and the blocks tile the array, so the array ends equal to that function: index-map facts
  decided over the grid, the written block at a symbolic point, block membership, the cover, the whole-array equation.
-/
import proofs.«144359_j3564822855692_2_alg».proof.Proof.BlockValue
import proofs.«144359_j3564822855692_2_alg».proof.Proof.Proj

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.HeadFold Cert.KernelIdeal.BlockValue
open Idealize.ShloMosaic.Pipeline (Dat Cfg Window)

variable (m : (ℓ : Loc nD τ sig) → Buf (Elt Ideal) ℓ)

/-! ## The first output array -/

/-- The printed index maps over the grid: the input rows' block moves with the output block (batch with batch,
    row tile with row tile), the weight matrix's block never moves, and the output block's head and lane axes
    stay at zero. -/
theorem idx_facts6 : ∀ t : Fin cfg0.N,
    win0_0.index t (0 : Fin 3) = win0_6.index t (0 : Fin 4)
    ∧ win0_0.index t (1 : Fin 3) = win0_6.index t (2 : Fin 4)
    ∧ win0_0.index t (2 : Fin 3) = 0
    ∧ win0_3.index t (0 : Fin 2) = 0 ∧ win0_3.index t (1 : Fin 2) = 0
    ∧ win0_6.index t (1 : Fin 4) = 0 ∧ win0_6.index t (3 : Fin 4) = 0
    ∧ win0_6.index t (0 : Fin 4) ≤ 3 ∧ win0_6.index t (2 : Fin 4) ≤ 7 :=
  (by decide +kernel : ∀ t : Fin grid0.N, _)

/-- Every (batch, row tile) pair is some point's block. -/
theorem onto6 : ∀ (q0 : Fin 4) (q2 : Fin 8), ∃ t : Fin cfg0.N, win0_6.index t = ![q0.val, 0, q2.val, 0] :=
  (by decide +kernel : ∀ (q0 : Fin 4) (q2 : Fin 8), ∃ t : Fin grid0.N, win0_6.index t = ![q0.val, 0, q2.val, 0])

/-- What point t writes back is block t of the folded projection of the arrays as the kernel finds them. -/
theorem flushed6_eq (c : Dev nD) (t : Fin cfg0.N) :
    (dats m 0 c).flushed 6 t
      = ((cfg0.win 6).blk t).view.read (Elt Ideal) (proj (V m c main_arg0) (V m c main_v2)) := by
  show (cfg0.win 6).cut (grid0.coords t) ((dats m 0 c).after 6 t) = _
  rw [after0_6]
  obtain ⟨a0, a1, a2, b0, b1, c1, c3, c0, c2⟩ := idx_facts6 t
  funext j
  have hj0 : (j 0).val < 1 := (j 0).isLt
  have hj1 : (j 1).val < 16 := (j 1).isLt
  have hj2 : (j 2).val < 128 := (j 2).isLt
  have hj3 : (j 3).val < 128 := (j 3).isLt
  show out0_6 (F := Ideal) (iblk m c 0 t) (iblk m c 1 t) (iblk m c 2 t) (iblk m c 3 t) (iblk m c 4 t) (iblk m c 5 t) j
    = proj (V m c main_arg0) (V m c main_v2) (((cfg0.win 6).blk t).view.emb j)
  refine (out6_apply (iblk m c 0 t) (iblk m c 1 t) (iblk m c 2 t) (iblk m c 3 t) (iblk m c 4 t) (iblk m c 5 t) j).trans ?_
  refine Finset.sum_congr rfl fun e _ => ?_
  have hr := row_val j
  have hc := col_val j
  have hX : iblk m c 0 t (ix3 (0 : Fin 1) (row j) e) = V m c main_arg0 (ix3
      (⟨((((cfg0.win 6).blk t).view.emb j) 0).val, ((((cfg0.win 6).blk t).view.emb j) 0).isLt⟩ : Fin 4)
      (⟨2 * ((((cfg0.win 6).blk t).view.emb j) 2).val + ((((cfg0.win 6).blk t).view.emb j) 3).val / 64, by
        have h2 : ((((cfg0.win 6).blk t).view.emb j) 2).val < 1024 := ((((cfg0.win 6).blk t).view.emb j) 2).isLt
        have h3 : ((((cfg0.win 6).blk t).view.emb j) 3).val < 128 := ((((cfg0.win 6).blk t).view.emb j) 3).isLt
        omega⟩ : Fin 2048) e) := by
    show V m c main_arg0 (((cfg0.win 0).blk t).view.emb (ix3 (0 : Fin 1) (row j) e)) = _
    refine congrArg (V m c main_arg0) (funext fun a => Fin.ext ?_)
    match a with
    | ⟨0, _⟩ =>
      show win0_0.index t (0 : Fin 3) * 1 + 1 * 0 = win0_6.index t (0 : Fin 4) * 1 + 1 * (j 0).val
      omega
    | ⟨1, _⟩ =>
      show win0_0.index t (1 : Fin 3) * 256 + 1 * (row j).val
        = 2 * (win0_6.index t (2 : Fin 4) * 128 + 1 * (j 2).val) + (win0_6.index t (3 : Fin 4) * 128 + 1 * (j 3).val) / 64
      omega
    | ⟨2, _⟩ =>
      show win0_0.index t (2 : Fin 3) * 1024 + 1 * e.val = e.val
      omega
  have hW : iblk m c 3 t (ix2 e (col j)) = V m c main_v2 (ix2 e
      (⟨((((cfg0.win 6).blk t).view.emb j) 1).val * 64 + ((((cfg0.win 6).blk t).view.emb j) 3).val % 64, by
        have h1 : ((((cfg0.win 6).blk t).view.emb j) 1).val < 16 := ((((cfg0.win 6).blk t).view.emb j) 1).isLt
        omega⟩ : Fin 1024)) := by
    show V m c main_v2 (((cfg0.win 3).blk t).view.emb (ix2 e (col j))) = _
    refine congrArg (V m c main_v2) (funext fun a => Fin.ext ?_)
    match a with
    | ⟨0, _⟩ =>
      show win0_3.index t (0 : Fin 2) * 1024 + 1 * e.val = e.val
      omega
    | ⟨1, _⟩ =>
      show win0_3.index t (1 : Fin 2) * 1024 + 1 * (col j).val
        = (win0_6.index t (1 : Fin 4) * 16 + 1 * (j 1).val) * 64 + (win0_6.index t (3 : Fin 4) * 128 + 1 * (j 3).val) % 64
      omega
  exact congrArg₂ (· * ·) hX hW

/-- An index of the array is in point t's block iff each coordinate is in the block's range on its axis. -/
theorem mem_blk6 (t : Fin cfg0.N) (i : S4x16x1024x128.Idx) :
    i ∈ ((cfg0.win 6).blk t).view.set ↔ ∀ a : Fin 4, win0_6.index t a * S1x16x128x128.size a ≤ (i a).val
      ∧ (i a).val < win0_6.index t a * S1x16x128x128.size a + S1x16x128x128.size a := by
  show i ∈ ((View.whole main_v9_0).slice (win0_6.rect t)).set ↔ _
  rw [View.set_slice_whole, Rect.mem_set_unit]
  exact Iff.rfl

/-- Every index of the array is in some point's block: the point of its batch and row tile. -/
theorem cover6 (i : S4x16x1024x128.Idx) :
    ∃ t : Fin cfg0.N, (cfg0.win 6).flush t = true ∧ i ∈ ((cfg0.win 6).blk t).view.set := by
  have hi0 : (i 0).val < 4 := (i 0).isLt
  have hi1 : (i 1).val < 16 := (i 1).isLt
  have hi2 : (i 2).val < 1024 := (i 2).isLt
  have hi3 : (i 3).val < 128 := (i 3).isLt
  obtain ⟨t, ht⟩ := onto6 ⟨(i 0).val, hi0⟩ ⟨(i 2).val / 128, by omega⟩
  have q0 : win0_6.index t (0 : Fin 4) = (i 0).val := congrFun ht 0
  have q1 : win0_6.index t (1 : Fin 4) = 0 := congrFun ht 1
  have q2 : win0_6.index t (2 : Fin 4) = (i 2).val / 128 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 128 ≤ (i 2).val ∧ (i 2).val < win0_6.index t (2 : Fin 4) * 128 + 128; omega
  | ⟨3, _⟩ => show win0_6.index t (3 : Fin 4) * 128 ≤ (i 3).val ∧ (i 3).val < win0_6.index t (3 : Fin 4) * 128 + 128; omega

/-- The array after the run is the folded projection of the arrays as the kernel finds them. -/
theorem final6 (c : Dev nD) : (dats m 0 c).arrAt 6 cfg0.N = proj (V m c main_arg0) (V m c main_v2) :=
  (dats m 0 c).arrAt_eq_of_cover 6 _ (fun t _ => flushed6_eq m c t) cover6

end Cert.KernelIdeal.Arrays

end
-- ==== Proof.ArrayK.lean ====
/-
  From each grid point's block to the whole second output array.

  Grid point (b, s) handles rows 256 s .. 256 s + 255 of batch b and writes block (b, all heads, s, all lanes) of the
  folded output [4, 16, 1024, 128]. Each written block is the restriction of ONE function of the whole arrays (the
  folded projection), and the blocks tile the array, so the array ends equal to that function: index-map facts
  decided over the grid, the written block at a symbolic point, block membership, the cover, the whole-array equation.
-/
import proofs.«144359_j3564822855692_2_alg».proof.Proof.BlockValue
import proofs.«144359_j3564822855692_2_alg».proof.Proof.Proj

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.HeadFold Cert.KernelIdeal.BlockValue
open Idealize.ShloMosaic.Pipeline (Dat Cfg Window)

variable (m : (ℓ : Loc nD τ sig) → Buf (Elt Ideal) ℓ)

/-! ## The second output array -/

/-- The printed index maps over the grid: the input rows' block moves with the output block (batch with batch,
    row tile with row tile), the weight matrix's block never moves, and the output block's head and lane axes
    stay at zero. -/
theorem idx_facts7 : ∀ t : Fin cfg0.N,
    win0_1.index t (0 : Fin 3) = win0_7.index t (0 : Fin 4)
    ∧ win0_1.index t (1 : Fin 3) = win0_7.index t (2 : Fin 4)
    ∧ win0_1.index t (2 : Fin 3) = 0
    ∧ win0_4.index t (0 : Fin 2) = 0 ∧ win0_4.index t (1 : Fin 2) = 0
    ∧ win0_7.index t (1 : Fin 4) = 0 ∧ win0_7.index t (3 : Fin 4) = 0
    ∧ win0_7.index t (0 : Fin 4) ≤ 3 ∧ win0_7.index t (2 : Fin 4) ≤ 7 :=
  (by decide +kernel : ∀ t : Fin grid0.N, _)

/-- Every (batch, row tile) pair is some point's block. -/
theorem onto7 : ∀ (q0 : Fin 4) (q2 : Fin 8), ∃ t : Fin cfg0.N, win0_7.index t = ![q0.val, 0, q2.val, 0] :=
  (by decide +kernel : ∀ (q0 : Fin 4) (q2 : Fin 8), ∃ t : Fin grid0.N, win0_7.index t = ![q0.val, 0, q2.val, 0])

/-- What point t writes back is block t of the folded projection of the arrays as the kernel finds them. -/
theorem flushed7_eq (c : Dev nD) (t : Fin cfg0.N) :
    (dats m 0 c).flushed 7 t
      = ((cfg0.win 7).blk t).view.read (Elt Ideal) (proj (V m c main_arg1) (V m c main_v5)) := by
  show (cfg0.win 7).cut (grid0.coords t) ((dats m 0 c).after 7 t) = _
  rw [after0_7]
  obtain ⟨a0, a1, a2, b0, b1, c1, c3, c0, c2⟩ := idx_facts7 t
  funext j
  have hj0 : (j 0).val < 1 := (j 0).isLt
  have hj1 : (j 1).val < 16 := (j 1).isLt
  have hj2 : (j 2).val < 128 := (j 2).isLt
  have hj3 : (j 3).val < 128 := (j 3).isLt
  show out0_7 (F := Ideal) (iblk m c 0 t) (iblk m c 1 t) (iblk m c 2 t) (iblk m c 3 t) (iblk m c 4 t) (iblk m c 5 t) j
    = proj (V m c main_arg1) (V m c main_v5) (((cfg0.win 7).blk t).view.emb j)
  refine (out7_apply (iblk m c 0 t) (iblk m c 1 t) (iblk m c 2 t) (iblk m c 3 t) (iblk m c 4 t) (iblk m c 5 t) j).trans ?_
  refine Finset.sum_congr rfl fun e _ => ?_
  have hr := row_val j
  have hc := col_val j
  have hX : iblk m c 1 t (ix3 (0 : Fin 1) (row j) e) = V m c main_arg1 (ix3
      (⟨((((cfg0.win 7).blk t).view.emb j) 0).val, ((((cfg0.win 7).blk t).view.emb j) 0).isLt⟩ : Fin 4)
      (⟨2 * ((((cfg0.win 7).blk t).view.emb j) 2).val + ((((cfg0.win 7).blk t).view.emb j) 3).val / 64, by
        have h2 : ((((cfg0.win 7).blk t).view.emb j) 2).val < 1024 := ((((cfg0.win 7).blk t).view.emb j) 2).isLt
        have h3 : ((((cfg0.win 7).blk t).view.emb j) 3).val < 128 := ((((cfg0.win 7).blk t).view.emb j) 3).isLt
        omega⟩ : Fin 2048) e) := by
    show V m c main_arg1 (((cfg0.win 1).blk t).view.emb (ix3 (0 : Fin 1) (row j) e)) = _
    refine congrArg (V m c main_arg1) (funext fun a => Fin.ext ?_)
    match a with
    | ⟨0, _⟩ =>
      show win0_1.index t (0 : Fin 3) * 1 + 1 * 0 = win0_7.index t (0 : Fin 4) * 1 + 1 * (j 0).val
      omega
    | ⟨1, _⟩ =>
      show win0_1.index t (1 : Fin 3) * 256 + 1 * (row j).val
        = 2 * (win0_7.index t (2 : Fin 4) * 128 + 1 * (j 2).val) + (win0_7.index t (3 : Fin 4) * 128 + 1 * (j 3).val) / 64
      omega
    | ⟨2, _⟩ =>
      show win0_1.index t (2 : Fin 3) * 1024 + 1 * e.val = e.val
      omega
  have hW : iblk m c 4 t (ix2 e (col j)) = V m c main_v5 (ix2 e
      (⟨((((cfg0.win 7).blk t).view.emb j) 1).val * 64 + ((((cfg0.win 7).blk t).view.emb j) 3).val % 64, by
        have h1 : ((((cfg0.win 7).blk t).view.emb j) 1).val < 16 := ((((cfg0.win 7).blk t).view.emb j) 1).isLt
        omega⟩ : Fin 1024)) := by
    show V m c main_v5 (((cfg0.win 4).blk t).view.emb (ix2 e (col j))) = _
    refine congrArg (V m c main_v5) (funext fun a => Fin.ext ?_)
    match a with
    | ⟨0, _⟩ =>
      show win0_4.index t (0 : Fin 2) * 1024 + 1 * e.val = e.val
      omega
    | ⟨1, _⟩ =>
      show win0_4.index t (1 : Fin 2) * 1024 + 1 * (col j).val
        = (win0_7.index t (1 : Fin 4) * 16 + 1 * (j 1).val) * 64 + (win0_7.index t (3 : Fin 4) * 128 + 1 * (j 3).val) % 64
      omega
  exact congrArg₂ (· * ·) hX hW

/-- An index of the array is in point t's block iff each coordinate is in the block's range on its axis. -/
theorem mem_blk7 (t : Fin cfg0.N) (i : S4x16x1024x128.Idx) :
    i ∈ ((cfg0.win 7).blk t).view.set ↔ ∀ a : Fin 4, win0_7.index t a * S1x16x128x128.size a ≤ (i a).val
      ∧ (i a).val < win0_7.index t a * S1x16x128x128.size a + S1x16x128x128.size a := by
  show i ∈ ((View.whole main_v9_1).slice (win0_7.rect t)).set ↔ _
  rw [View.set_slice_whole, Rect.mem_set_unit]
  exact Iff.rfl

/-- Every index of the array is in some point's block: the point of its batch and row tile. -/
theorem cover7 (i : S4x16x1024x128.Idx) :
    ∃ t : Fin cfg0.N, (cfg0.win 7).flush t = true ∧ i ∈ ((cfg0.win 7).blk t).view.set := by
  have hi0 : (i 0).val < 4 := (i 0).isLt
  have hi1 : (i 1).val < 16 := (i 1).isLt
  have hi2 : (i 2).val < 1024 := (i 2).isLt
  have hi3 : (i 3).val < 128 := (i 3).isLt
  obtain ⟨t, ht⟩ := onto7 ⟨(i 0).val, hi0⟩ ⟨(i 2).val / 128, by omega⟩
  have q0 : win0_7.index t (0 : Fin 4) = (i 0).val := congrFun ht 0
  have q1 : win0_7.index t (1 : Fin 4) = 0 := congrFun ht 1
  have q2 : win0_7.index t (2 : Fin 4) = (i 2).val / 128 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 128 ≤ (i 2).val ∧ (i 2).val < win0_7.index t (2 : Fin 4) * 128 + 128; omega
  | ⟨3, _⟩ => show win0_7.index t (3 : Fin 4) * 128 ≤ (i 3).val ∧ (i 3).val < win0_7.index t (3 : Fin 4) * 128 + 128; omega

/-- The array after the run is the folded projection of the arrays as the kernel finds them. -/
theorem final7 (c : Dev nD) : (dats m 0 c).arrAt 7 cfg0.N = proj (V m c main_arg1) (V m c main_v5) :=
  (dats m 0 c).arrAt_eq_of_cover 7 _ (fun t _ => flushed7_eq m c t) cover7

end Cert.KernelIdeal.Arrays

end
-- ==== Proof.ArrayV.lean ====
/-
  From each grid point's block to the whole third output array.

  Grid point (b, s) handles rows 256 s .. 256 s + 255 of batch b and writes block (b, all heads, s, all lanes) of the
  folded output [4, 16, 1024, 128]. Each written block is the restriction of ONE function of the whole arrays (the
  folded projection), and the blocks tile the array, so the array ends equal to that function: index-map facts
  decided over the grid, the written block at a symbolic point, block membership, the cover, the whole-array equation.
-/
import proofs.«144359_j3564822855692_2_alg».proof.Proof.BlockValue
import proofs.«144359_j3564822855692_2_alg».proof.Proof.Proj

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.HeadFold Cert.KernelIdeal.BlockValue
open Idealize.ShloMosaic.Pipeline (Dat Cfg Window)

variable (m : (ℓ : Loc nD τ sig) → Buf (Elt Ideal) ℓ)

/-! ## The third output array -/

/-- The printed index maps over the grid: the input rows' block moves with the output block (batch with batch,
    row tile with row tile), the weight matrix's block never moves, and the output block's head and lane axes
    stay at zero. -/
theorem idx_facts8 : ∀ t : Fin cfg0.N,
    win0_2.index t (0 : Fin 3) = win0_8.index t (0 : Fin 4)
    ∧ win0_2.index t (1 : Fin 3) = win0_8.index t (2 : Fin 4)
    ∧ win0_2.index t (2 : Fin 3) = 0
    ∧ win0_5.index t (0 : Fin 2) = 0 ∧ win0_5.index t (1 : Fin 2) = 0
    ∧ win0_8.index t (1 : Fin 4) = 0 ∧ win0_8.index t (3 : Fin 4) = 0
    ∧ win0_8.index t (0 : Fin 4) ≤ 3 ∧ win0_8.index t (2 : Fin 4) ≤ 7 :=
  (by decide +kernel : ∀ t : Fin grid0.N, _)

/-- Every (batch, row tile) pair is some point's block. -/
theorem onto8 : ∀ (q0 : Fin 4) (q2 : Fin 8), ∃ t : Fin cfg0.N, win0_8.index t = ![q0.val, 0, q2.val, 0] :=
  (by decide +kernel : ∀ (q0 : Fin 4) (q2 : Fin 8), ∃ t : Fin grid0.N, win0_8.index t = ![q0.val, 0, q2.val, 0])

/-- What point t writes back is block t of the folded projection of the arrays as the kernel finds them. -/
theorem flushed8_eq (c : Dev nD) (t : Fin cfg0.N) :
    (dats m 0 c).flushed 8 t
      = ((cfg0.win 8).blk t).view.read (Elt Ideal) (proj (V m c main_arg2) (V m c main_v8)) := by
  show (cfg0.win 8).cut (grid0.coords t) ((dats m 0 c).after 8 t) = _
  rw [after0_8]
  obtain ⟨a0, a1, a2, b0, b1, c1, c3, c0, c2⟩ := idx_facts8 t
  funext j
  have hj0 : (j 0).val < 1 := (j 0).isLt
  have hj1 : (j 1).val < 16 := (j 1).isLt
  have hj2 : (j 2).val < 128 := (j 2).isLt
  have hj3 : (j 3).val < 128 := (j 3).isLt
  show out0_8 (F := Ideal) (iblk m c 0 t) (iblk m c 1 t) (iblk m c 2 t) (iblk m c 3 t) (iblk m c 4 t) (iblk m c 5 t) j
    = proj (V m c main_arg2) (V m c main_v8) (((cfg0.win 8).blk t).view.emb j)
  refine (out8_apply (iblk m c 0 t) (iblk m c 1 t) (iblk m c 2 t) (iblk m c 3 t) (iblk m c 4 t) (iblk m c 5 t) j).trans ?_
  refine Finset.sum_congr rfl fun e _ => ?_
  have hr := row_val j
  have hc := col_val j
  have hX : iblk m c 2 t (ix3 (0 : Fin 1) (row j) e) = V m c main_arg2 (ix3
      (⟨((((cfg0.win 8).blk t).view.emb j) 0).val, ((((cfg0.win 8).blk t).view.emb j) 0).isLt⟩ : Fin 4)
      (⟨2 * ((((cfg0.win 8).blk t).view.emb j) 2).val + ((((cfg0.win 8).blk t).view.emb j) 3).val / 64, by
        have h2 : ((((cfg0.win 8).blk t).view.emb j) 2).val < 1024 := ((((cfg0.win 8).blk t).view.emb j) 2).isLt
        have h3 : ((((cfg0.win 8).blk t).view.emb j) 3).val < 128 := ((((cfg0.win 8).blk t).view.emb j) 3).isLt
        omega⟩ : Fin 2048) e) := by
    show V m c main_arg2 (((cfg0.win 2).blk t).view.emb (ix3 (0 : Fin 1) (row j) e)) = _
    refine congrArg (V m c main_arg2) (funext fun a => Fin.ext ?_)
    match a with
    | ⟨0, _⟩ =>
      show win0_2.index t (0 : Fin 3) * 1 + 1 * 0 = win0_8.index t (0 : Fin 4) * 1 + 1 * (j 0).val
      omega
    | ⟨1, _⟩ =>
      show win0_2.index t (1 : Fin 3) * 256 + 1 * (row j).val
        = 2 * (win0_8.index t (2 : Fin 4) * 128 + 1 * (j 2).val) + (win0_8.index t (3 : Fin 4) * 128 + 1 * (j 3).val) / 64
      omega
    | ⟨2, _⟩ =>
      show win0_2.index t (2 : Fin 3) * 1024 + 1 * e.val = e.val
      omega
  have hW : iblk m c 5 t (ix2 e (col j)) = V m c main_v8 (ix2 e
      (⟨((((cfg0.win 8).blk t).view.emb j) 1).val * 64 + ((((cfg0.win 8).blk t).view.emb j) 3).val % 64, by
        have h1 : ((((cfg0.win 8).blk t).view.emb j) 1).val < 16 := ((((cfg0.win 8).blk t).view.emb j) 1).isLt
        omega⟩ : Fin 1024)) := by
    show V m c main_v8 (((cfg0.win 5).blk t).view.emb (ix2 e (col j))) = _
    refine congrArg (V m c main_v8) (funext fun a => Fin.ext ?_)
    match a with
    | ⟨0, _⟩ =>
      show win0_5.index t (0 : Fin 2) * 1024 + 1 * e.val = e.val
      omega
    | ⟨1, _⟩ =>
      show win0_5.index t (1 : Fin 2) * 1024 + 1 * (col j).val
        = (win0_8.index t (1 : Fin 4) * 16 + 1 * (j 1).val) * 64 + (win0_8.index t (3 : Fin 4) * 128 + 1 * (j 3).val) % 64
      omega
  exact congrArg₂ (· * ·) hX hW

/-- An index of the array is in point t's block iff each coordinate is in the block's range on its axis. -/
theorem mem_blk8 (t : Fin cfg0.N) (i : S4x16x1024x128.Idx) :
    i ∈ ((cfg0.win 8).blk t).view.set ↔ ∀ a : Fin 4, win0_8.index t a * S1x16x128x128.size a ≤ (i a).val
      ∧ (i a).val < win0_8.index t a * S1x16x128x128.size a + S1x16x128x128.size a := by
  show i ∈ ((View.whole main_v9_2).slice (win0_8.rect t)).set ↔ _
  rw [View.set_slice_whole, Rect.mem_set_unit]
  exact Iff.rfl

/-- Every index of the array is in some point's block: the point of its batch and row tile. -/
theorem cover8 (i : S4x16x1024x128.Idx) :
    ∃ t : Fin cfg0.N, (cfg0.win 8).flush t = true ∧ i ∈ ((cfg0.win 8).blk t).view.set := by
  have hi0 : (i 0).val < 4 := (i 0).isLt
  have hi1 : (i 1).val < 16 := (i 1).isLt
  have hi2 : (i 2).val < 1024 := (i 2).isLt
  have hi3 : (i 3).val < 128 := (i 3).isLt
  obtain ⟨t, ht⟩ := onto8 ⟨(i 0).val, hi0⟩ ⟨(i 2).val / 128, by omega⟩
  have q0 : win0_8.index t (0 : Fin 4) = (i 0).val := congrFun ht 0
  have q1 : win0_8.index t (1 : Fin 4) = 0 := congrFun ht 1
  have q2 : win0_8.index t (2 : Fin 4) = (i 2).val / 128 := congrFun ht 2
  have q3 : win0_8.index t (3 : Fin 4) = 0 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 128 ≤ (i 2).val ∧ (i 2).val < win0_8.index t (2 : Fin 4) * 128 + 128; omega
  | ⟨3, _⟩ => show win0_8.index t (3 : Fin 4) * 128 ≤ (i 3).val ∧ (i 3).val < win0_8.index t (3 : Fin 4) * 128 + 128; omega

/-- The array after the run is the folded projection of the arrays as the kernel finds them. -/
theorem final8 (c : Dev nD) : (dats m 0 c).arrAt 8 cfg0.N = proj (V m c main_arg2) (V m c main_v8) :=
  (dats m 0 c).arrAt_eq_of_cover 8 _ (fun t _ => flushed8_eq m c t) cover8

end Cert.KernelIdeal.Arrays

end
-- ==== Proof.Result.lean ====
/-
  The kernel's result as one function of an input and its weights, and that function entry by entry.

  After the kernel the host views the folded output [4, 16, 1024, 128] as [4, 16, 2048, 64]: same row-major order, so
  entry (b, h, s, d) is folded entry (b, h, s/2, (s mod 2)*64 + d), which came from row 2(s/2) + ((s mod 2)*64 + d)/64 = s
  and column h*64 + d. The fold and the host's view cancel:

      result X W (b, h, s, d) = sum over e of X(b, s, e) * W(h, d, e).
-/
import proofs.«144359_j3564822855692_2_alg».proof.Proof.Proj
import proofs.«144359_j3564822855692_2_alg».proof.Proof.Product

noncomputable section

namespace Cert.KernelIdeal.Arrays

open Idealize.ShloMosaic Idealize.ShloMosaic.ValueIdx Cert.KernelIdeal Cert.KernelIdeal.Gen Cert.KernelIdeal.Product

/-- The folded projection against the transposed weights, viewed with one position per row. -/
def result (X : FVec Ideal S4x2048x1024 .f32) (W : FVec Ideal S16x64x1024 .f32) : FVec Ideal S4x16x2048x64 .f32 :=
  shapeCast S4x16x2048x64 (proj X (weightT W)) shapeCasts_S4x16x1024x128_S4x16x2048x64

/-- Entry (b, h, s, d) is the product of position s of batch b with row d of head h's weights. -/
theorem result_apply (X : FVec Ideal S4x2048x1024 .f32) (W : FVec Ideal S16x64x1024 .f32) (i : S4x16x2048x64.Idx) :
    result X W i = ∑ e : Fin 1024,
      X (ix3 (⟨(i 0).val, (i 0).isLt⟩ : Fin 4) (⟨(i 2).val, (i 2).isLt⟩ : Fin 2048) e)
        * W (ix3 (⟨(i 1).val, (i 1).isLt⟩ : Fin 16) (⟨(i 3).val, (i 3).isLt⟩ : Fin 64) e) := by
  have hi0 : (i 0).val < 4 := (i 0).isLt
  have hi1 : (i 1).val < 16 := (i 1).isLt
  have hi2 : (i 2).val < 2048 := (i 2).isLt
  have hi3 : (i 3).val < 64 := (i 3).isLt
  -- the folded entry with the same row-major position
  let k : S4x16x1024x128.Idx := ix4 (⟨(i 0).val, hi0⟩ : Fin 4) (⟨(i 1).val, hi1⟩ : Fin 16)
    (⟨(i 2).val / 2, by omega⟩ : Fin 1024) (⟨(i 2).val % 2 * 64 + (i 3).val, by omega⟩ : Fin 128)
  have hk : (S4x16x1024x128.rowMajor k).val = (S4x16x2048x64.rowMajor i).val := by
    rw [Shape.rowMajor_val_four, Shape.rowMajor_val_four]
    show ((((i 0).val * 16 + (i 1).val) * 1024 + (i 2).val / 2) * 128 + ((i 2).val % 2 * 64 + (i 3).val))
      = ((((i 0).val * 16 + (i 1).val) * 2048 + (i 2).val) * 64 + (i 3).val)
    omega
  unfold result
  rw [shapeCast_apply _ shapeCasts_S4x16x1024x128_S4x16x2048x64 i k hk]
  unfold proj
  refine Finset.sum_congr rfl fun e _ => ?_
  rw [weightT_apply]
  refine congrArg₂ (· * ·) (congrArg X (funext fun a => Fin.ext ?_)) (congrArg W (funext fun a => Fin.ext ?_))
  · match a with
    | ⟨0, _⟩ => rfl
    | ⟨1, _⟩ =>
      show 2 * ((i 2).val / 2) + ((i 2).val % 2 * 64 + (i 3).val) / 64 = (i 2).val
      omega
    | ⟨2, _⟩ => rfl
  · match a with
    | ⟨0, _⟩ =>
      show ((i 1).val * 64 + ((i 2).val % 2 * 64 + (i 3).val) % 64) / 64 = (i 1).val
      omega
    | ⟨1, _⟩ =>
      show ((i 1).val * 64 + ((i 2).val % 2 * 64 + (i 3).val) % 64) % 64 = (i 3).val
      omega
    | ⟨2, _⟩ => rfl

end Cert.KernelIdeal.Arrays

end
-- ==== Proof.KernelRun.lean ====
/-
  The idealized kernel's run with each result named.

  Around the region: before it the host builds the three weight matrices (transpose, flatten, narrow); after it the
  host views each folded output array with one position per row. The region leaves each output array at the folded
  projection of its input and weight matrix. Composed: each result is `result X W` of its own input and weights,
  and the six arguments end unchanged.
-/
import proofs.«144359_j3564822855692_2_alg».proof.Proof.ArrayQ
import proofs.«144359_j3564822855692_2_alg».proof.Proof.ArrayK
import proofs.«144359_j3564822855692_2_alg».proof.Proof.ArrayV
import proofs.«144359_j3564822855692_2_alg».proof.Proof.Result
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem
open Idealize.ShloMosaic.StableHlo
open Cert.KernelIdeal Cert.KernelIdeal.Gen Cert.KernelIdeal.Product
open Idealize.ShloMosaic.Pipeline (Dat Cfg Window)

variable (m : (ℓ : Loc nD τ sig) → Buf (Elt Ideal) ℓ) (ρ : Dev nD → PrngReg)

/-- The weight matrix the kernel finds in main_v2: the host's transpose, flattening and narrowing of main_arg3. -/
theorem weights_main_v2 (c : Dev nD) :
    V m c main_v2 = weightT (m ((c : Thread nD τ).loc main_arg3)) := by
  show StableHlo.after hostOps0 (fun b => m (c, b)) (Proc.devRef .tc main_v2) = _
  after_results
  rfl

/-- The weight matrix the kernel finds in main_v5: the host's transpose, flattening and narrowing of main_arg4. -/
theorem weights_main_v5 (c : Dev nD) :
    V m c main_v5 = weightT (m ((c : Thread nD τ).loc main_arg4)) := by
  show StableHlo.after hostOps0 (fun b => m (c, b)) (Proc.devRef .tc main_v5) = _
  after_results
  rfl

/-- The weight matrix the kernel finds in main_v8: the host's transpose, flattening and narrowing of main_arg5. -/
theorem weights_main_v8 (c : Dev nD) :
    V m c main_v8 = weightT (m ((c : Thread nD τ).loc main_arg5)) := by
  show StableHlo.after hostOps0 (fun b => m (c, b)) (Proc.devRef .tc main_v8) = _
  after_results
  rfl

/-- After the region the host views the first folded array with one position per row. -/
theorem tail_main_v10 (c : Dev nD) :
    Pipeline.afterTail₀ cfgs (dats m) 0 (V0 m) [hostOps1] c main_v10
      = shapeCast S4x16x2048x64 ((dats m 0 c).arrAt 6 cfg0.N) shapeCasts_S4x16x1024x128_S4x16x2048x64 := by
  unfold Pipeline.afterTail₀
  show StableHlo.after hostOps1 _ (Proc.devRef .tc main_v10) = _
  after_results
  rw [Pipeline.withArrays_arr spec0 launch0.win.arr_inj c _ _ 6]
  rfl

/-- After the region the host views the second folded array with one position per row. -/
theorem tail_main_v11 (c : Dev nD) :
    Pipeline.afterTail₀ cfgs (dats m) 0 (V0 m) [hostOps1] c main_v11
      = shapeCast S4x16x2048x64 ((dats m 0 c).arrAt 7 cfg0.N) shapeCasts_S4x16x1024x128_S4x16x2048x64 := by
  unfold Pipeline.afterTail₀
  show StableHlo.after hostOps1 _ (Proc.devRef .tc main_v11) = _
  after_results
  rw [Pipeline.withArrays_arr spec0 launch0.win.arr_inj c _ _ 7]
  rfl

/-- After the region the host views the third folded array with one position per row. -/
theorem tail_main_v12 (c : Dev nD) :
    Pipeline.afterTail₀ cfgs (dats m) 0 (V0 m) [hostOps1] c main_v12
      = shapeCast S4x16x2048x64 ((dats m 0 c).arrAt 8 cfg0.N) shapeCasts_S4x16x1024x128_S4x16x2048x64 := by
  unfold Pipeline.afterTail₀
  show StableHlo.after hostOps1 _ (Proc.devRef .tc main_v12) = _
  after_results
  rw [Pipeline.withArrays_arr spec0 launch0.win.arr_inj c _ _ 8]
  rfl

/-- Every weakly fair execution of the idealized kernel terminates with each result at `result` of its input and
    weights and the arguments unchanged. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg3))
      ∧ r.2.mem ((c.tc : Thread nD τ).loc main_v11) = result (m ((c.tc : Thread nD τ).loc main_arg1)) (m ((c.tc : Thread nD τ).loc main_arg4))
      ∧ r.2.mem ((c.tc : Thread nD τ).loc main_v12) = result (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(((h c).2 main_v10 (Pipeline.mem_restRefs_of main_v10 (by decide) (by decide))).trans (tail_main_v10 m c)).trans (by
        rw [final6, V_main_arg0, weights_main_v2]; rfl),
      (((h c).2 main_v11 (Pipeline.mem_restRefs_of main_v11 (by decide) (by decide))).trans (tail_main_v11 m c)).trans (by
        rw [final7, V_main_arg1, weights_main_v5]; rfl),
      (((h c).2 main_v12 (Pipeline.mem_restRefs_of main_v12 (by decide) (by decide))).trans (tail_main_v12 m c)).trans (by
        rw [final8, V_main_arg2, weights_main_v8]; rfl),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Arrays

end
-- ==== Proof.Bridge.lean ====
/-
  The kernel's result function is the reference's.

  The reference contracts the weights W[h, d, e] with the input X[b, s, e] over e, giving [h, d, b, s], and transposes
  to [b, h, s, d]: entry (b, h, s, d) is the sum over e of W(h, d, e) * X(b, s, e). The kernel's result at the same
  entry is the sum over e of X(b, s, e) * W(h, d, e). Multiplication of extended reals commutes, term by term; no
  finiteness is needed.
-/
import proofs.«144359_j3564822855692_2_alg».proof.Proof.Gen.ReferenceIdeal.Read
import proofs.«144359_j3564822855692_2_alg».proof.Proof.Result

noncomputable section

namespace Cert.KernelIdeal.Arrays

open Idealize.ShloMosaic Idealize.ShloMosaic.ValueIdx

/-- The first result: the kernel's function is the reference's (its product taken the other way round). -/
theorem result_eq_v1 (X : FVec Ideal Cert.KernelIdeal.S4x2048x1024 .f32) (W : FVec Ideal Cert.KernelIdeal.S16x64x1024 .f32) :
    result X W = Cert.ReferenceIdeal.Read.val_main_v1 (F := Ideal) X W := by
  funext i
  rw [result_apply, Cert.ReferenceIdeal.Read.val_main_v1_apply, Cert.ReferenceIdeal.Read.val_main_v0_apply]
  refine Finset.sum_congr rfl fun e _ => ?_
  rw [mul_comm]
  refine congrArg₂ (· * ·) (congrArg W (funext fun a => Fin.ext ?_)) (congrArg X (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The second result: the kernel's function is the reference's (its product taken the other way round). -/
theorem result_eq_v3 (X : FVec Ideal Cert.KernelIdeal.S4x2048x1024 .f32) (W : FVec Ideal Cert.KernelIdeal.S16x64x1024 .f32) :
    result X W = Cert.ReferenceIdeal.Read.val_main_v3 (F := Ideal) X W := by
  funext i
  rw [result_apply, Cert.ReferenceIdeal.Read.val_main_v3_apply, Cert.ReferenceIdeal.Read.val_main_v2_apply]
  refine Finset.sum_congr rfl fun e _ => ?_
  rw [mul_comm]
  refine congrArg₂ (· * ·) (congrArg W (funext fun a => Fin.ext ?_)) (congrArg X (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The third result: the kernel's function is the reference's (its product taken the other way round). -/
theorem result_eq_v5 (X : FVec Ideal Cert.KernelIdeal.S4x2048x1024 .f32) (W : FVec Ideal Cert.KernelIdeal.S16x64x1024 .f32) :
    result X W = Cert.ReferenceIdeal.Read.val_main_v5 (F := Ideal) X W := by
  funext i
  rw [result_apply, Cert.ReferenceIdeal.Read.val_main_v5_apply, Cert.ReferenceIdeal.Read.val_main_v4_apply]
  refine Finset.sum_congr rfl fun e _ => ?_
  rw [mul_comm]
  refine congrArg₂ (· * ·) (congrArg W (funext fun a => Fin.ext ?_)) (congrArg X (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

end Cert.KernelIdeal.Arrays

end
-- ==== Proof.lean ====
/-
  Multi-head projection: q, k, v = einsum("bse,hde->bhsd") of three inputs [4, 2048, 1024] with three weight stacks
  [16, 64, 1024], as one fused kernel against the three einsums.

  The kernel, per grid point (batch b, row tile s), multiplies 256 input rows (narrowed to bf16) by the weight matrix
  Wt[e, h*64 + d] = W[h, d, e] (built on the host: transpose, flatten, narrow), and stores each head's 64 columns
  refolded to 128 lanes (positions 2i and 2i+1 side by side); the host then views the folded [4, 16, 1024, 128] array
  as [4, 16, 2048, 64]. On the extended reals a change of float format is the identity and a product into a zero
  accumulator is the plain sum of products, so each result is, entry by entry,

      sum over e of X(b, s, e) * W(h, d, e)

  — the fold and the host's view cancel (Result.lean) — and the reference's contraction followed by its transpose is
  the sum over e of W(h, d, e) * X(b, s, e). The two agree by commutativity of the product of extended reals, term by
  term (Bridge.lean); finiteness of the inputs is never used.

  The frames of the two kernel programs are the generated class-A frame certificates; the reference's frame is its
  generated run with the results dropped. The ideal pass rewrote nothing, so the preservation claim is trivial.
  The kernel's value is read off the generated frame run: the sixteen stored planes of a block as one function of
  the block's product (HeadFold.lean, Blocks.lean), the product at an entry (Product.lean, BlockValue.lean), from
  blocks to arrays (ArrayQ/K/V.lean), and the host operations around the region (KernelRun.lean).
-/
import proofs.«144359_j3564822855692_2_alg».proof.Defs
import proofs.«144359_j3564822855692_2_alg».proof.Proof.Gen.Kernel
import proofs.«144359_j3564822855692_2_alg».proof.Proof.Gen.Kernel.Frame
import proofs.«144359_j3564822855692_2_alg».proof.Proof.Gen.KernelIdeal
import proofs.«144359_j3564822855692_2_alg».proof.Proof.Gen.KernelIdeal.Frame
import proofs.«144359_j3564822855692_2_alg».proof.Proof.Gen.ReferenceIdeal
import proofs.«144359_j3564822855692_2_alg».proof.Proof.Gen.ReferenceIdeal.Run
import proofs.«144359_j3564822855692_2_alg».proof.Proof.Gen.ReferenceIdeal.Read
import proofs.«144359_j3564822855692_2_alg».proof.Proof.Gen.Pre_finite_inputs
import proofs.«144359_j3564822855692_2_alg».proof.Proof.KernelRun
import proofs.«144359_j3564822855692_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories agreeing on the six arguments both programs end with each result at the kernel's result function of
    its own input and weights: the kernel by its run read off the frame, the reference by its generated run and the
    equality of the two functions. -/
theorem algebraic : Cert.algebraic_KernelIdeal_ReferenceIdeal := by
  intro m ρ m' ρ' _ hagree
  refine ⟨fun c => Cert.KernelIdeal.Arrays.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3)),
      fun c => Cert.KernelIdeal.Arrays.result
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4)),
      fun c => Cert.KernelIdeal.Arrays.result
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5)),
      Cert.KernelIdeal.Arrays.run m ρ, ?_⟩
  refine (θ_run Cert.ReferenceIdeal.defs _ _).mono (fun _ h c => ?_) (Cert.ReferenceIdeal.Value.run (F := Ideal) m' ρ')
  obtain ⟨h1, h3, h5, kept⟩ := h c
  obtain ⟨a0, a1, a2, a3, a4, a5⟩ := hagree c
  refine ⟨?_, ?_, ?_, kept⟩
  · rw [h1, Cert.ReferenceIdeal.Read.val_main_v1_eq, a0, a3]
    exact (Cert.KernelIdeal.Arrays.result_eq_v1 _ _).symm
  · rw [h3, Cert.ReferenceIdeal.Read.val_main_v3_eq, a1, a4]
    exact (Cert.KernelIdeal.Arrays.result_eq_v3 _ _).symm
  · rw [h5, Cert.ReferenceIdeal.Read.val_main_v5_eq, a2, a5]
    exact (Cert.KernelIdeal.Arrays.result_eq_v5 _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
